-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x256 .f32) (main_arg1 : FVec F S256x64 .f32) (main_arg2 : FVec F S800000 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x256 : Shape := ⟨2, ![50000, 256]⟩
abbrev S256x64 : Shape := ⟨2, ![256, 64]⟩
abbrev S800000 : Shape := ⟨1, ![800000]⟩
abbrev S50000x64 : Shape := ⟨2, ![50000, 64]⟩
abbrev S5000x256 : Shape := ⟨2, ![5000, 256]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩

abbrev nBuf : Space → Nat
  | .hbm => 23
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩

abbrev nBuf : Space → Nat
  | .hbm => 25
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.GraphConv.lean ====
/-
  The layer as ONE function of its five arguments, at the ideal values:

      result = relu (A · (x · w))

  where x · w is the dense product (50000 × 256 by 256 × 64), A is the sparse adjacency matrix given in coordinate form
  (edge e carries the value vals e from column cols e to row rows e, a negative column index wrapped once by the number
  of nodes), applied as "gather the product's rows at the columns, scale each by its edge value, add the scaled rows up
  at the rows", and relu is the maximum with zero. The sparse stage is kept as one opaque function `aggregate` of the
  product and the three edge arrays: both programs apply literally the same host operations there, so nothing about
  a gather or a scatter-add is ever needed beyond "equal inputs give equal outputs".
-/
import proofs.«129113_j46411416600780_1_alg».proof.Proof.Gen.ReferenceIdeal.Read

noncomputable section

namespace Cert.GraphConv

open Cert.ReferenceIdeal Cert.ReferenceIdeal.Gen Idealize.ShloMosaic Idealize.ShloMosaic.TcCoe

/-- The dense stage: the feature matrix times the weights. -/
def product (x : FVec Ideal S50000x256 .f32) (w : FVec Ideal S256x64 .f32) :
    FVec Ideal S50000x64 .f32 :=
  Host.dotGeneral (F := Ideal) dot_S50000x256_S256x64_S50000x64_1_0_0_1_n_n none x w

/-- Entry (r, c) of the dense stage is the inner product of row r of the features with column c of the weights. -/
theorem product_apply (x : FVec Ideal S50000x256 .f32) (w : FVec Ideal S256x64 .f32)
    (i : S50000x64.Idx) :
    product x w i = ∑ k : Fin 256, x (Read.lidx_main_v0 i k) * w (Read.ridx_main_v0 i k) :=
  Read.val_main_v0_apply x w i

/-- The sparse stage: rows of `xw` gathered at the (wrapped) column indices, scaled edge by edge, summed into the rows. -/
def aggregate (xw : FVec Ideal S50000x64 .f32) (vals : FVec Ideal S800000 .f32)
    (rows cols : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 rows)
    (mulf
      (Host.gather gather_S50000x64_S800000x1_S800000x64_1_0_n_n_0_1_164 xw
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols)))
      (broadcastInDim S800000x64 ![0, 1] bcast_S800000x1_S800000x64_0_1 (broadcastInDim S800000x1 ![0] bcast_S800000_S800000x1_0 vals)))

/-- The activation: the maximum with zero, entry by entry. -/
def relu (z : FVec Ideal S50000x64 .f32) : FVec Ideal S50000x64 .f32 :=
  maximumf z (broadcastInDim S50000x64 ![] bcast_S_S50000x64 (constant (F := Ideal) S_ .f32 0x00000000#32))

theorem relu_apply (z : FVec Ideal S50000x64 .f32) (i : S50000x64.Idx) :
    relu z i = max (z i) (Ideal.ofBits .f32 0x00000000#32) := rfl

/-- The whole layer. -/
def result (x : FVec Ideal S50000x256 .f32) (w : FVec Ideal S256x64 .f32)
    (vals : FVec Ideal S800000 .f32) (rows cols : IVec S800000 32) :
    FVec Ideal S50000x64 .f32 :=
  relu (aggregate (product x w) vals rows cols)

end Cert.GraphConv

end
-- ==== Proof.BlockProduct.lean ====
/-
  One grid point of the first kernel multiplies a block of 5000 rows of the feature matrix by the whole weight matrix.
  Read at the ideal values, where a change of float format is the identity and the matrix unit's product into a zero
  accumulator is the exact sum, entry (r, c) of what the body stores is  ∑ k < 256, xblock (r, k) · w (k, c).
-/
import proofs.«129113_j46411416600780_1_alg».proof.Proof.Gen.KernelIdeal.Skeleton
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe

/-- Row `r` of the block, column `k` of the contraction: the left factor's index. -/
abbrev lrow (j : S5000x64.Idx) (k : Fin 256) : S5000x256.Idx := fun a => match a with
  | ⟨0, _⟩ => ⟨(j 0).val, (j 0).isLt⟩
  | ⟨1, _⟩ => ⟨k.val, k.isLt⟩

/-- Row `k` of the weights, output column `c`: the right factor's index. -/
abbrev rcol (j : S5000x64.Idx) (k : Fin 256) : S256x64.Idx := fun a => match a with
  | ⟨0, _⟩ => ⟨k.val, k.isLt⟩
  | ⟨1, _⟩ => ⟨(j 1).val, (j 1).isLt⟩

theorem lhs_0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl

theorem lhs_1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q

theorem rhs_0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q

theorem rhs_1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- What the matmul body stores, entry by entry: the exact inner product of a row of the block with a column of the
    weights (the two format changes are the identity at the ideal values; the accumulator is the zero splat). -/
theorem pay_apply (x0 : Vec Ideal S5000x256 .f32) (x1 : Vec Ideal S256x64 .f32) (j : S5000x64.Idx) :
    k0_pay1 (F := Ideal) x0 x1 j = ∑ k : Fin 256, x0 (lrow j k) * x1 (rcol j k) := by
  unfold k0_pay1
  simp only [matmul]
  rw [Ideal.matmul_constant_zero_apply,
    ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = lrow j k :=
    funext fun a => Fin.ext (by
      match a with
      | ⟨0, _⟩ => exact lhs_0 _ _
      | ⟨1, _⟩ => exact (lhs_1 _ _).trans hk)
  have er : dot_S5000x256_S256x64_S5000x64_1_0_0_1_n_n.rhsIdx j ((ValueIdx.contrEquiv1 dot_S5000x256_S256x64_S5000x64_1_0_0_1_n_n 256 rfl rfl).symm k) = rcol j k :=
    funext fun a => Fin.ext (by
      match a with
      | ⟨0, _⟩ => exact (rhs_0 _ _).trans hk
      | ⟨1, _⟩ => exact rhs_1 _ _)
  rw [el, er]
  rfl

end Cert.KernelIdeal.BlockProduct

end
-- ==== Proof.DenseStage.lean ====
/-
  The first kernel, read as a value: its grid has ten points, point t takes rows 5000·t … 5000·t + 4999 of the features
  and the whole weight matrix, and writes back those rows of the product. Entry by entry a written-back block is the
  corresponding block of the full product x · w (an inner product over the 256 shared columns does not depend on how the
  rows are cut), and the ten blocks tile the 50000 rows, so after the region the output array IS x · w.
-/
import proofs.«129113_j46411416600780_1_alg».proof.Proof.Gen.KernelIdeal.Frame
import proofs.«129113_j46411416600780_1_alg».proof.Proof.BlockProduct
import proofs.«129113_j46411416600780_1_alg».proof.Proof.GraphConv
import Idealize.ShloMosaic.Lib.Pipeline.Value

set_option maxRecDepth 16384

noncomputable section

namespace Cert.KernelIdeal.DenseStage

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the ten points: the feature block and the output block move together down the rows, the
    weights stay put, and no block leaves the first block column. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the full product of the arrays the region finds. -/
theorem flushed_eq (c : Dev nD) (t : Fin cfg0.N) :
    (dat0 V c).flushed 2 t
      = ((cfg0.win 2).blk t).view.read (Elt Ideal) (Cert.GraphConv.product (V c main_arg0) (V c main_arg1)) := by
  show (cfg0.win 2).cut (grid0.coords t) ((dat0 V c).after 2 t) = _
  rw [after0_2]
  unfold out0_2
  rw [View.canon_unit_zero zero_off]
  simp only [View.ld_unit_zero (S := S5000x256) zero_off, View.ld_unit_zero (S := S256x64) zero_off]
  obtain ⟨e0, e1, e2, e3, e4, e5⟩ := index_facts t
  funext j
  show k0_pay1 (iblk0 V c 0 t) (iblk0 V c 1 t) j
    = Cert.GraphConv.product (V c main_arg0) (V c main_arg1) (((cfg0.win 2).blk t).view.emb j)
  refine (Cert.KernelIdeal.BlockProduct.pay_apply _ _ j).trans ?_
  refine Eq.trans ?_ (Cert.GraphConv.product_apply _ _ _).symm
  refine Finset.sum_congr rfl fun k _ => ?_
  have h0 : ((cfg0.win 0).blk t).view.emb (Cert.KernelIdeal.BlockProduct.lrow j k)
      = Cert.ReferenceIdeal.Read.lidx_main_v0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (Cert.KernelIdeal.BlockProduct.rcol j k)
      = Cert.ReferenceIdeal.Read.ridx_main_v0 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  have hx : iblk0 V c 0 t (Cert.KernelIdeal.BlockProduct.lrow j k)
      = V c main_arg0 (Cert.ReferenceIdeal.Read.lidx_main_v0 (((cfg0.win 2).blk t).view.emb j) k) := by
    show V c main_arg0 (((cfg0.win 0).blk t).view.emb (Cert.KernelIdeal.BlockProduct.lrow j k)) = _
    rw [h0]
  have hw : iblk0 V c 1 t (Cert.KernelIdeal.BlockProduct.rcol j k)
      = V c main_arg1 (Cert.ReferenceIdeal.Read.ridx_main_v0 (((cfg0.win 2).blk t).view.emb j) k) := by
    show V c main_arg1 (((cfg0.win 1).blk t).view.emb (Cert.KernelIdeal.BlockProduct.rcol j k)) = _
    rw [h1]
  exact congrArg₂ (fun a b : EReal => a * b) hx hw

/-- An index of the product array lies in point `t`'s block iff each coordinate lies in the block's range. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The ten blocks tile the array: row r is in the block of point r / 5000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the first region its output array holds the full product of the two arrays the region was entered with. -/
theorem final (c : Dev nD) :
    (dat0 V c).arrAt 2 cfg0.N = Cert.GraphConv.product (V c main_arg0) (V c main_arg1) :=
  (dat0 V c).arrAt_eq_of_cover 2 (Cert.GraphConv.product (V c main_arg0) (V c main_arg1))
    (fun t _ => flushed_eq V c t) covered

end Cert.KernelIdeal.DenseStage

end
-- ==== Proof.ActivationStage.lean ====
/-
  The second kernel, read as a value: its grid has ten points, point t takes rows 5000·t … 5000·t + 4999 of the
  aggregated array and writes back their maximum with zero. The activation acts entry by entry, so a written-back block is
  the corresponding block of relu of the whole array, and the ten blocks tile the 50000 rows: after the region the output
  array IS relu of the array the region was entered with.
-/
import proofs.«129113_j46411416600780_1_alg».proof.Proof.Gen.KernelIdeal.Frame
import proofs.«129113_j46411416600780_1_alg».proof.Proof.GraphConv
import Idealize.ShloMosaic.Lib.Pipeline.Value
import Idealize.ShloMosaic.Lib.ValueIdx

set_option maxRecDepth 16384

noncomputable section

namespace Cert.KernelIdeal.ActivationStage

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- What the activation body stores, entry by entry: the maximum of the loaded entry with zero (the shape cast is
    between equal shapes; the splat reads its scalar everywhere). -/
theorem pay_apply (x0 : Vec Ideal S5000x64 .f32) (j : S5000x64.Idx) :
    k1_pay1 (F := Ideal) x0 j = max (x0 j) (Ideal.ofBits .f32 0x00000000#32) := by
  unfold k1_pay1
  rw [ValueIdx.maximumf_apply, shapeCast_self]
  rfl

/-- The printed index maps over the ten points: the input block and the output block move together down the rows and
    neither leaves the first block column. -/
theorem index_facts : ∀ t : Fin cfg1.N, win1_0.index t (0 : Fin 2) = win1_1.index t (0 : Fin 2)
    ∧ win1_0.index t (1 : Fin 2) = 0
    ∧ win1_1.index t (1 : Fin 2) = 0
    ∧ win1_1.index t (0 : Fin 2) ≤ 9 :=
  (by decide +kernel : ∀ t : Fin grid1.N, _)

/-- Every one of the ten row blocks is some point's. -/
theorem index_onto : ∀ q : Fin 10, ∃ t : Fin cfg1.N, win1_1.index t = ![q.val, 0] :=
  (by decide +kernel : ∀ q : Fin 10, ∃ t : Fin grid1.N, win1_1.index t = ![q.val, 0])

/-- What point `t` writes back is block `t` of relu of the array the region finds. -/
theorem flushed_eq (c : Dev nD) (t : Fin cfg1.N) :
    (dat1 V c).flushed 1 t = ((cfg1.win 1).blk t).view.read (Elt Ideal) (Cert.GraphConv.relu (V c main_v13)) := by
  show (cfg1.win 1).cut (grid1.coords t) ((dat1 V c).after 1 t) = _
  rw [after1_1]
  unfold out1_1
  rw [View.canon_unit_zero zero_off]
  simp only [View.ld_unit_zero (S := S5000x64) zero_off]
  obtain ⟨e0, e1, e2, e3⟩ := index_facts t
  funext j
  show k1_pay1 (iblk1 V c 0 t) j = Cert.GraphConv.relu (V c main_v13) (((cfg1.win 1).blk t).view.emb j)
  refine ((pay_apply _ j).trans ?_).trans (Cert.GraphConv.relu_apply _ _).symm
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  have hx : iblk1 V c 0 t j = V c main_v13 (((cfg1.win 1).blk t).view.emb j) := by
    show V c main_v13 (((cfg1.win 0).blk t).view.emb j) = _
    rw [h0]
  exact congrArg (fun a : EReal => max a (Ideal.ofBits .f32 0x00000000#32)) hx

/-- An index of the output array lies in point `t`'s block iff each coordinate lies in the block's range. -/
theorem mem_blk (t : Fin cfg1.N) (i : S50000x64.Idx) :
    i ∈ ((cfg1.win 1).blk t).view.set ↔ ∀ a : Fin 2, win1_1.index t a * S5000x64.size a ≤ (i a).val
      ∧ (i a).val < win1_1.index t a * S5000x64.size a + S5000x64.size a := by
  show i ∈ ((View.whole main_v14).slice (win1_1.rect t)).set ↔ _
  rw [View.set_slice_whole, Rect.mem_set_unit]
  exact Iff.rfl

/-- The ten blocks tile the array: row r is in the block of point r / 5000. -/
theorem covered (i : S50000x64.Idx) :
    ∃ t : Fin cfg1.N, (cfg1.win 1).flush t = true ∧ i ∈ ((cfg1.win 1).blk t).view.set := by
  have hi0 : (i 0).val < 50000 := (i 0).isLt
  have hi1 : (i 1).val < 64 := (i 1).isLt
  obtain ⟨t, ht⟩ := index_onto ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 64 ≤ (i 1).val ∧ (i 1).val < win1_1.index t (1 : Fin 2) * 64 + 64; omega

/-- After the second region its output array holds relu of the array the region was entered with. -/
theorem final (c : Dev nD) : (dat1 V c).arrAt 1 cfg1.N = Cert.GraphConv.relu (V c main_v13) :=
  (dat1 V c).arrAt_eq_of_cover 1 (Cert.GraphConv.relu (V c main_v13)) (fun t _ => flushed_eq V c t) covered

end Cert.KernelIdeal.ActivationStage

end
-- ==== Proof.KernelRun.lean ====
/-
  The idealized kernel's whole run, with its result named. The program is three segments — the dense-stage kernel, the
  host's sparse stage, the activation kernel — and the buffer contents at each boundary are a fold from the launch
  memory. Every weakly fair execution terminates with the result buffer holding what that fold leaves there and the five
  arguments as launched; the stages' value lemmas then say what the fold leaves: relu (A · (x · w)).
-/
import proofs.«129113_j46411416600780_1_alg».proof.Proof.Gen.KernelIdeal.Frame
import proofs.«129113_j46411416600780_1_alg».proof.Proof.DenseStage
import proofs.«129113_j46411416600780_1_alg».proof.Proof.ActivationStage
import proofs.«129113_j46411416600780_1_alg».proof.Proof.GraphConv
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_boundary : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Run

/-! ## What the fold leaves in the result buffer, at the ideal values -/

section Value

variable (m : (ℓ : Loc nD τ sig) → Buf (Elt Ideal) ℓ) (ρ : Dev nD → PrngReg)

/-- The three edge arrays are untouched by the first region: it neither stages nor writes them. -/
theorem edge_vals (c : Dev nD) : W1 m ρ c (Proc.devRef .tc main_arg2) = m ((c : Thread nD τ).loc main_arg2) :=
  W1_of_ne m ρ c main_arg2 (by decide)
theorem edge_rows (c : Dev nD) : W1 m ρ c (Proc.devRef .tc main_arg3) = m ((c : Thread nD τ).loc main_arg3) :=
  W1_of_ne m ρ c main_arg3 (by decide)
theorem edge_cols (c : Dev nD) : W1 m ρ c (Proc.devRef .tc main_arg4) = m ((c : Thread nD τ).loc main_arg4) :=
  W1_of_ne m ρ c main_arg4 (by decide)

/-- After the first region the product buffer holds x · w of the launch arguments. -/
theorem dense (c : Dev nD) : W1 m ρ c (Proc.devRef .tc main_v0)
    = Cert.GraphConv.product (m ((c : Thread nD τ).loc main_arg0)) (m ((c : Thread nD τ).loc main_arg1)) :=
  (W1_arr m ρ c 2).trans (Cert.KernelIdeal.DenseStage.final (V0 m ρ) c)

/-- The host's sparse stage: the second region finds, in the buffer it reads, the aggregate of whatever the first
    region left in the product buffer and of the edge arrays as they then stand. -/
theorem sparse (c : Dev nD) : V2 m ρ c main_v13
    = Cert.GraphConv.aggregate (W1 m ρ c (Proc.devRef .tc main_v0)) (W1 m ρ c (Proc.devRef .tc main_arg2))
        (W1 m ρ c (Proc.devRef .tc main_arg3)) (W1 m ρ c (Proc.devRef .tc main_arg4)) := by
  show StableHlo.after hostOps1 (W1 m ρ c) (Proc.devRef .tc main_v13) = _
  after_results
  rfl

/-- The result buffer at the last boundary: relu (A · (x · w)) of the launch arguments. -/
theorem value (c : Dev nD) : W3 m ρ c (Proc.devRef .tc main_v14)
    = Cert.GraphConv.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (W3_arr m ρ c 1).trans ((Cert.KernelIdeal.ActivationStage.final (V2 m ρ) c).trans ?_)
  rw [sparse m ρ c, dense m ρ c, edge_vals m ρ c, edge_rows m ρ c, edge_cols m ρ c]
  rfl

/-- The idealized kernel's run: the result is relu (A · (x · w)) of the launch arguments, which end unchanged. -/
theorem run : θ_run defs (onTc (τ := τ) (main (F := Ideal))) ⟨m, fun _ => 0, ρ⟩ (fun r => ∀ c : Dev nD,
      r.2.mem ((c.tc : Thread nD τ).loc main_v14)
        = Cert.GraphConv.result (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value m ρ c), (h c).2⟩) (run_boundary m ρ)

end Value

end Cert.KernelIdeal.Layer

end
-- ==== Proof.lean ====
/-
  A graph-convolution layer against its jnp reference, over the extended reals:

      out = relu (A · (x · w)),

  x the 50000 × 256 node features, w the 256 × 64 weights, A the sparse adjacency matrix in coordinate form (800000 edges:
  value, row, column).

  The kernel program computes x · w in a kernel that walks ten blocks of 5000 rows (each block a matrix-unit product of the
  block with the whole of w, the operands narrowed to bf16 first), leaves the sparse stage — gather the product's rows at
  the edges' columns, scale by the edges' values, add up at the edges' rows — to the host, and applies the maximum with
  zero in a second kernel, again over ten blocks of 5000 rows. The reference computes x · w as one host product, the same
  sparse stage, and relu as one host maximum.

  At the ideal values a change of float format is the identity and both products are the exact sum over the 256 shared
  columns, so a row block of the kernel's product is the same row block of the reference's (Proof/BlockProduct.lean,
  Proof/DenseStage.lean); the ten blocks tile the rows, so the product arrays agree. The sparse stage is literally the
  same host operations on both sides, applied to equal arrays (Proof/GraphConv.lean keeps it as one opaque function).
  The activation acts entry by entry, so blocks of it are blocks of the whole (Proof/ActivationStage.lean). No law that
  fails at an infinity is used anywhere — only "equal operands give equal results" and a re-indexing of a finite sum — so
  the finiteness precondition is never opened. Proof/KernelRun.lean puts the three segments' boundary contents together
  into the kernel program's run with its result named.

  The ideal pass rewrote nothing, so the idealization claim is trivial; the three frames are the generated frame
  certificates (the reference's being its generated run with the result dropped).
-/
import proofs.«129113_j46411416600780_1_alg».proof.Defs
import proofs.«129113_j46411416600780_1_alg».proof.Proof.Gen.Kernel
import proofs.«129113_j46411416600780_1_alg».proof.Proof.Gen.Kernel.Skeleton
import proofs.«129113_j46411416600780_1_alg».proof.Proof.Gen.Kernel.Launch
import proofs.«129113_j46411416600780_1_alg».proof.Proof.Gen.Kernel.Points
import proofs.«129113_j46411416600780_1_alg».proof.Proof.Gen.Kernel.Frame
import proofs.«129113_j46411416600780_1_alg».proof.Proof.Gen.KernelIdeal
import proofs.«129113_j46411416600780_1_alg».proof.Proof.Gen.KernelIdeal.Skeleton
import proofs.«129113_j46411416600780_1_alg».proof.Proof.Gen.KernelIdeal.Launch
import proofs.«129113_j46411416600780_1_alg».proof.Proof.Gen.KernelIdeal.Points
import proofs.«129113_j46411416600780_1_alg».proof.Proof.Gen.KernelIdeal.Frame
import proofs.«129113_j46411416600780_1_alg».proof.Proof.Gen.ReferenceIdeal
import proofs.«129113_j46411416600780_1_alg».proof.Proof.Gen.ReferenceIdeal.Run
import proofs.«129113_j46411416600780_1_alg».proof.Proof.Gen.ReferenceIdeal.Read
import proofs.«129113_j46411416600780_1_alg».proof.Proof.Gen.Pre_finite_inputs
import proofs.«129113_j46411416600780_1_alg».proof.Proof.GraphConv
import proofs.«129113_j46411416600780_1_alg».proof.Proof.KernelRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with relu (A · (x · w)) of those arguments in their
    result buffers: the kernel program by its run read stage by stage, the reference because its operations composed ARE
    that function. -/
theorem algebraic : Cert.algebraic_KernelIdeal_ReferenceIdeal := by
  intro m ρ m' ρ' _ hagree
  refine ⟨fun c => Cert.GraphConv.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
